-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S32x2048x512 : Shape := ⟨3, ![32, 2048, 512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S32x2048x512 : S_.BroadcastsInDim S32x2048x512 (![] : Fin 0 → Fin S32x2048x512.rank)
  reducesTo_S32x2048x512_S_d0_1_2 : S32x2048x512.ReducesTo [0, 1, 2] S_

variable [Facts]

def fn {F : FTy → Type} [FloatOps F] (main_arg0 : FVec F S32x512x512 .f32) (main_arg1 : FVec F S32x2048x512 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  main_v8
-- ==== Kernel.lean ====
abbrev S32x512x512 : Shape := ⟨3, ![32, 512, 512]⟩
abbrev S32x2048x512 : Shape := ⟨3, ![32, 2048, 512]⟩
abbrev S32x512x2048 : Shape := ⟨3, ![32, 512, 2048]⟩
abbrev S1x256x512 : Shape := ⟨3, ![1, 256, 512]⟩
abbrev S1x2048x512 : Shape := ⟨3, ![1, 2048, 512]⟩
abbrev S1x256x2048 : Shape := ⟨3, ![1, 256, 2048]⟩
abbrev S2048x512 : Shape := ⟨2, ![2048, 512]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 7
  | .smem => 0
  | _ => 0

abbrev bufTy : (tb : Table) → Fin (tcTables nBuf tb) → BufTy
  | .hbm, ⟨0, _⟩ => ⟨S32x512x512, .f32⟩
  | .hbm, ⟨1, _⟩ => ⟨S32x2048x512, .f32⟩
  | .hbm, ⟨2, _⟩ => ⟨S32x512x2048, .f32⟩
  | .local _ .vmem, ⟨0, _⟩ => ⟨S1x256x512, .f32⟩
  | .local _ .vmem, ⟨1, _⟩ => ⟨S1x256x512, .f32⟩
  | .local _ .vmem, ⟨2, _⟩ => ⟨S1x2048x512, .f32⟩
  | .local _ .vmem, ⟨3, _⟩ => ⟨S1x2048x512, .f32⟩
  | .local _ .vmem, ⟨4, _⟩ => ⟨S1x256x2048, .f32⟩
  | .local _ .vmem, ⟨5, _⟩ => ⟨S1x256x2048, .f32⟩
  | .local _ .vmem, ⟨6, _⟩ => ⟨S2048x512, .bf16⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x512_S2048x512_S256x2048_1_1_0_0_n_n_wf : DotDims.WF S256x512 S2048x512 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S32x512x512.size a
  hwx0_0 : ∀ i : grid0.Coords, EltTy.bits .f32 = 32 ∨ (Rect.block (s := S32x512x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S32x2048x512.size a
  hwx0_1 : ∀ i : grid0.Coords, EltTy.bits .f32 = 32 ∨ (Rect.block (s := S32x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S32x512x2048.size a
  hwx0_2 : ∀ i : grid0.Coords, EltTy.bits .f32 = 32 ∨ (Rect.block (s := S32x512x2048) S1x256x2048.size (cc0_transform_2 i) (hinb0_2 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S32x2048x512 : Shape := ⟨3, ![32, 2048, 512]⟩
abbrev S32x512x2048 : Shape := ⟨3, ![32, 512, 2048]⟩
abbrev S_ : Shape := ⟨0, ![]⟩
abbrev S32x512 : Shape := ⟨2, ![32, 512]⟩
abbrev S32x512x1 : Shape := ⟨3, ![32, 512, 1]⟩

abbrev nBuf : Space → Nat
  | .hbm => 17
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x2048x512, .f32⟩
  | .hbm, ⟨2, _⟩ => ⟨S32x512x2048, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x512x1, .f32⟩
  | .hbm, ⟨9, _⟩ => ⟨S32x512x2048, .f32⟩
  | .hbm, ⟨10, _⟩ => ⟨S32x512x2048, .f32⟩
  | .hbm, ⟨11, _⟩ => ⟨S32x512x2048, .f32⟩
  | .hbm, ⟨12, _⟩ => ⟨S_, .f32⟩
  | .hbm, ⟨13, _⟩ => ⟨S32x512, .f32⟩
  | .hbm, ⟨14, _⟩ => ⟨S32x512x1, .f32⟩
  | .hbm, ⟨15, _⟩ => ⟨S32x512x2048, .f32⟩
  | .hbm, ⟨16, _⟩ => ⟨S32x512x2048, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S32x512x2048_S32x512_d2 : S32x512x2048.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x2048_0_1_2 : S32x512x1.BroadcastsInDim S32x512x2048 (![0, 1, 2] : Fin 3 → Fin S32x512x2048.rank)
  dot_S32x512x512_S32x2048x512_S32x512x2048_2_2_1_1_0_0_wf : DotDims.WF S32x512x512 S32x2048x512 S32x512x2048 [2] [2] [1] [1] [0] [0]

variable [Facts₀]

def dot_S32x512x512_S32x2048x512_S32x512x2048_2_2_1_1_0_0 : DotDims S32x512x512 S32x2048x512 S32x512x2048 where
  lhsContracting := [2]
  rhsContracting := [2]
  lhsNonContracting := [1]
  rhsNonContracting := [1]
  lhsBatch := [0]
  rhsBatch := [0]
  wf := dot_S32x512x512_S32x2048x512_S32x512x2048_2_2_1_1_0_0_wf

class Facts : Prop extends Facts₀ where

variable [Facts]
-- ==== Proof.Softmax.lean ====
/-
  Row softmax on the extended reals, over a finite index type, and the array both programs compute.

  For a row `s : Fin n → EReal` the row's maximum is the fold of `max` from −∞ over the row; the softmax at `j` is
  `exp (s j − max) / ∑ₖ exp (s k − max)`. The array is the softmax, along the last axis, of the scores
  `scores b i j = ∑_d dec[b, i, d] · enc[b, j, d]`: each score is one finite sum of products, each output row the
  softmax of one row of scores. Nothing here uses a distributive law or a cancellation, so nothing here needs the
  entries to be finite: the two programs are compared as the same expression of the same sums.
-/
import Idealize.ShloMosaic.PureOps.Ideal
import Idealize.ShloMosaic.PureOps.Ideal.Laws
import Idealize.ShloMosaic.Lib.ValueIdx

noncomputable section

namespace Cert.Softmax

open Idealize.ShloMosaic Idealize.ShloMosaic.ValueIdx

/-- −∞ as both programs write it: the f32 pattern of the negative infinity (never evaluated: it is the same word on
    both sides, and all that is used of it is that a fold of `max` from it is at least it). -/
abbrev negInf : EReal := Ideal.ofBits .f32 0xFF800000#32

/-- The maximum of a row, from −∞. -/
def rowMax {n : ℕ} (s : Fin n → EReal) : EReal :=
  (Finset.univ : Finset (Fin n)).fold max negInf s

/-- The fold starts at −∞ and only grows. -/
theorem negInf_le_rowMax {n : ℕ} (s : Fin n → EReal) : negInf ≤ rowMax s :=
  (Finset.le_fold_max _).2 (Or.inl le_rfl)

/-- So taking the maximum with −∞ once more changes nothing. -/
theorem max_negInf_rowMax {n : ℕ} (s : Fin n → EReal) : max negInf (rowMax s) = rowMax s :=
  max_eq_right (negInf_le_rowMax s)

/-- The softmax of a row at `j`. -/
def softmax {n : ℕ} (s : Fin n → EReal) (j : Fin n) : EReal :=
  Ideal.div (Ideal.exp (s j - rowMax s)) (∑ k : Fin n, Ideal.exp (s k - rowMax s))

/-- The score of decoder row `i` against encoder row `j` in batch `b`: their inner product over the 512 features. -/
def scores (dec : (⟨3, ![32, 512, 512]⟩ : Shape).Idx → EReal) (enc : (⟨3, ![32, 2048, 512]⟩ : Shape).Idx → EReal)
    (b : Fin 32) (i : Fin 512) (j : Fin 2048) : EReal :=
  ∑ k : Fin 512, dec (ix3 b i k) * enc (ix3 b j k)

/-- The whole result: at `(b, i, j)` the softmax over `j` of the scores of decoder row `(b, i)`. -/
def attn (dec : (⟨3, ![32, 512, 512]⟩ : Shape).Idx → EReal) (enc : (⟨3, ![32, 2048, 512]⟩ : Shape).Idx → EReal) :
    (⟨3, ![32, 512, 2048]⟩ : Shape).Idx → EReal :=
  fun i => softmax (scores dec enc (i 0) (i 1)) (i 2)

end Cert.Softmax

end
-- ==== Proof.RefAttn.lean ====
/-
  The reference computes the attention array.

  Its stages, read at an index: the `dot_general` at `(b, i, j)` is the score `∑_d dec[b, i, d] · enc[b, j, d]`; the
  reduction by `maximum` over the last axis at `(b, i)` is the fold of `max` from −∞ over the row of scores — the
  row's maximum —, and the `maximum` with −∞ that follows changes nothing, since a fold from −∞ is at least −∞; the two
  broadcasts put that maximum back at every `j` of the row; subtract, exponential; the reduction by `add` at `(b, i)`
  is `0 + ∑_j` of the exponentials; broadcast back, divide. That is the softmax of the row of scores at `j`.
-/
import proofs.«139620_j13065290514977_2_alg».proof.Proof.Gen.ReferenceIdeal.Read
import proofs.«139620_j13065290514977_2_alg».proof.Proof.Softmax

noncomputable section

namespace Cert.ReferenceIdeal.RefValue

open Cert.ReferenceIdeal Cert.ReferenceIdeal.Gen Cert.ReferenceIdeal.Read Idealize.ShloMosaic Idealize.ShloMosaic.ValueIdx Cert.Softmax

variable (x0 : S32x512x512.Idx → EReal) (x1 : S32x2048x512.Idx → EReal)

/-- The last axis of `[32, 512, 2048]` dropped leaves `[32, 512]`. -/
theorem reduces_last : S32x512x2048.Reduces [2] S32x512 := by decide

/-- Row `(b, i)` with `k` put back on the last axis is `(b, i, k)`. -/
theorem lift_eq (b : Fin 32) (i : Fin 512) (k : Fin 2048) : reduces_last.lift (ix2 b i) k = ix3 b i k :=
  funext fun a => Fin.ext (by match a with | ⟨0, _⟩ => rfl | ⟨1, _⟩ => rfl | ⟨2, _⟩ => rfl)

/-- The `dot_general` at `(b, i, j)` is the score of decoder row `(b, i)` against encoder row `(b, j)`. -/
theorem v0_apply (b : Fin 32) (i : Fin 512) (j : Fin 2048) :
    val_main_v0 (F := Ideal) x0 x1 (ix3 b i j) = scores x0 x1 b i j := by
  rw [val_main_v0_apply]
  unfold scores
  refine Finset.sum_congr rfl fun k _ => ?_
  have el : lidx_main_v0 (ix3 b i j) k = ix3 b i k :=
    funext fun a => Fin.ext (by match a with | ⟨0, _⟩ => rfl | ⟨1, _⟩ => rfl | ⟨2, _⟩ => rfl)
  have er : ridx_main_v0 (ix3 b i j) k = ix3 b j k :=
    funext fun a => Fin.ext (by match a with | ⟨0, _⟩ => rfl | ⟨1, _⟩ => rfl | ⟨2, _⟩ => rfl)
  rw [el, er]

/-- The reduction by `maximum` over the last axis, at `(b, i)`, is the maximum of the row of scores. -/
theorem v1_apply (b : Fin 32) (i : Fin 512) :
    val_main_v1 (F := Ideal) x0 x1 (ix2 b i) = rowMax (scores x0 x1 b i) := by
  unfold val_main_v1
  rw [Host.reduce_eq_fold_single FloatOps.maximumf _ _ reducesTo_S32x512x2048_S32x512_d2 reduces_last h_S_]
  unfold rowMax
  have e : (val_main_v0 (F := Ideal) x0 x1 ∘ reduces_last.lift (ix2 b i)) = scores x0 x1 b i :=
    funext fun k => (congrArg (val_main_v0 (F := Ideal) x0 x1) (lift_eq b i k)).trans (v0_apply x0 x1 b i k)
  rw [e]
  rfl

/-- … and the `maximum` with −∞ broadcast over `[32, 512]` leaves it. -/
theorem v3_apply (b : Fin 32) (i : Fin 512) :
    val_main_v3 (F := Ideal) x0 x1 (ix2 b i) = rowMax (scores x0 x1 b i) := by
  rw [val_main_v3_apply, val_main_v2_apply, val_main_cst_0_apply, v1_apply]
  exact max_negInf_rowMax _

/-- The two broadcasts put the row's maximum at every `j`. -/
theorem v5_apply (b : Fin 32) (i : Fin 512) (j : Fin 2048) :
    val_main_v5 (F := Ideal) x0 x1 (ix3 b i j) = rowMax (scores x0 x1 b i) := by
  rw [val_main_v5_apply, val_main_v4_apply]
  have e : idx_main_v4 (idx_main_v5 (ix3 b i j)) = ix2 b i :=
    funext fun a => Fin.ext (by match a with | ⟨0, _⟩ => rfl | ⟨1, _⟩ => rfl)
  rw [e, v3_apply]

/-- The exponential of the score's distance to its row's maximum. -/
theorem v7_apply (b : Fin 32) (i : Fin 512) (j : Fin 2048) :
    val_main_v7 (F := Ideal) x0 x1 (ix3 b i j) = Ideal.exp (scores x0 x1 b i j - rowMax (scores x0 x1 b i)) := by
  rw [val_main_v7_apply, val_main_v6_apply, v0_apply, v5_apply]
  rfl

/-- The reduction by `add` over the last axis, from zero: the sum of the row's exponentials. -/
theorem v8_apply (b : Fin 32) (i : Fin 512) :
    val_main_v8 (F := Ideal) x0 x1 (ix2 b i) = ∑ k : Fin 2048, Ideal.exp (scores x0 x1 b i k - rowMax (scores x0 x1 b i)) := by
  rw [val_main_v8_apply, val_main_cst_1_apply]
  show Ideal.ofBits .f32 0x00000000#32 + _ = _
  rw [Ideal.ofBits_zero_f32, zero_add]
  refine Finset.sum_congr rfl fun k _ => ?_
  have e : idx_main_v8 (ix2 b i) k = ix3 b i k :=
    funext fun a => Fin.ext (by match a with | ⟨0, _⟩ => rfl | ⟨1, _⟩ => rfl | ⟨2, _⟩ => rfl)
  rw [e, v7_apply]

/-- The two broadcasts put that sum at every `j`. -/
theorem v10_apply (b : Fin 32) (i : Fin 512) (j : Fin 2048) :
    val_main_v10 (F := Ideal) x0 x1 (ix3 b i j) = ∑ k : Fin 2048, Ideal.exp (scores x0 x1 b i k - rowMax (scores x0 x1 b i)) := by
  rw [val_main_v10_apply, val_main_v9_apply]
  have e : idx_main_v9 (idx_main_v10 (ix3 b i j)) = ix2 b i :=
    funext fun a => Fin.ext (by match a with | ⟨0, _⟩ => rfl | ⟨1, _⟩ => rfl)
  rw [e, v8_apply]

/-- The reference's result is the attention array. -/
theorem ref_eq_attn : val_main_v11 (F := Ideal) x0 x1 = attn x0 x1 := by
  funext i
  obtain ⟨b, r, j, rfl⟩ : ∃ (b : Fin 32) (r : Fin 512) (j : Fin 2048), i = ix3 b r j := ⟨i 0, i 1, i 2, eq_ix3 i⟩
  rw [val_main_v11_apply, v7_apply, v10_apply]
  rfl

end Cert.ReferenceIdeal.RefValue

end
-- ==== Proof.Pieces.lean ====
/-
  What one grid point leaves behind, as values, at any float instance.

  The kernel body has two cases. At the first decoder tile of a batch it stores the narrowed encoder block into the
  carried buffer and then reads that buffer back for the product: the carried buffer ends at the narrowing of the
  encoder block, and the output tile at the row softmax computed from the decoder tile and that same narrowing. At
  the second decoder tile it stores nothing into the carried buffer and computes the output tile from the decoder
  tile and whatever the carried buffer held. Each buffer is written by ONE store covering it, so what it holds is
  that store's payload.
-/
import proofs.«139620_j13065290514977_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- First tile of a batch: the carried buffer ends at the narrowed encoder block. -/
theorem carried_first (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x256x2048 .f32) (harg4 : arg4.IsWhole) (arg5 : Memref sig .tc .vmem S2048x512 .bf16) (harg5 : arg5.IsWhole) (hc0 : cond0_0 i)
    (x0 : Vec F S1x256x512 .f32) (x1 : Vec F S1x2048x512 .f32) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero zero2]
  simp only [View.readAt_eq_ld, harg3.read_unread, View.ld_unit_zero (S := S1x2048x512) zero3]

/-- First tile of a batch: the output tile is computed from the decoder tile and the narrowed encoder block just
    stored (the load of the carried buffer reads back the one store that covers it). -/
theorem tile_first (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x256x2048 .f32) (harg4 : arg4.IsWhole) (arg5 : Memref sig .tc .vmem S2048x512 .bf16) (harg5 : arg5.IsWhole) (hc0 : cond0_0 i)
    (x0 : Vec F S1x256x512 .f32) (x1 : Vec F S1x2048x512 .f32) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero zero3, View.readCov_unit_zero (S := S2048x512) _ zero2]
  simp only [View.readAt_eq_ld, harg2.read_unread, harg3.read_unread, View.ld_unit_zero (S := S1x256x512) zero3, View.ld_unit_zero (S := S1x2048x512) zero3]

/-- Second tile of a batch: the output tile is computed from the decoder tile and what the carried buffer held. -/
theorem tile_second (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x256x2048 .f32) (harg4 : arg4.IsWhole) (arg5 : Memref sig .tc .vmem S2048x512 .bf16) (harg5 : arg5.IsWhole) (hc0 : ¬cond0_0 i)
    (x0 : Vec F S1x256x512 .f32) (x1 : Vec F S1x2048x512 .f32) (xs0 : Vec F S2048x512 .bf16) :
    out0_B_2 c i arg2 harg2 arg3 harg3 arg4 harg4 arg5 harg5 hc0 x0 x1 xs0 = k0_pay2 x0 xs0 := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero zero3]
  simp only [View.readAt_eq_ld, harg2.read_unread, harg5.read_unread, View.ld_unit_zero (S := S1x256x512) zero3, View.ld_unit_zero (S := S2048x512) zero2]

end Cert.KernelIdeal.Pieces

end
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.Payload.lean ====
/-
  The kernel's arithmetic, read at an index on the extended reals.

  Narrowing to bf16 is the identity, so the carried buffer's payload at `(j, d)` is the encoder block at `(0, j, d)`.
  The output tile's payload at `(0, r, j)` is: the product into a zero accumulator, at `(r, j)` the sum over the
  512 features of decoder entry `(0, r, d)` times carried entry `(j, d)` — a row of scores; the row's maximum (a
  fold of `max` from −∞), kept as a column and broadcast back over the row; the exponentials of the distances to it;
  their sum over the row, kept as a column and broadcast back; the quotient. That is the softmax of row `r` of the
  scores, at `j`.
-/
import proofs.«139620_j13065290514977_2_alg».proof.Proof.Gen.KernelIdeal.Skeleton
import proofs.«139620_j13065290514977_2_alg».proof.Proof.Softmax
import proofs.«139620_j13065290514977_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Softmax

/-! ## The carried buffer's payload -/

/-- The narrowed encoder block at `(j, d)` is the block's entry `(0, j, d)`. -/
theorem narrowed_apply (x1 : Vec Ideal S1x2048x512 .f32) (j : Fin 2048) (d : Fin 512) :
    k0_pay1 (F := Ideal) x1 (ix2 j d) = x1 (ix3 (0 : Fin 1) j d) := by
  unfold k0_pay1
  rw [shapeCast_self]
  exact shapeCast_1ab_ab_apply x1 shapeCasts_S1x2048x512_S2048x512 j d

/-! ## The product: a row of scores -/

/-- Output row `r` comes from decoder row `r`, … -/
theorem lhs_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
/-- … output column `j` from carried row `j`, … -/
theorem rhs_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
/-- … and the contracted axis is the feature axis of both. -/
theorem lhs_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem rhs_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- The product into a zero accumulator, at `(r, j)`: the inner product of row `r` of the left operand with row `j`
    of the right one. -/
theorem product_apply (l : FVec Ideal S256x512 .bf16) (s : FVec Ideal S2048x512 .bf16) (r : Fin 256) (j : Fin 2048) :
    matmul dot_S256x512_S2048x512_S256x2048_1_1_0_0_n_n none l s (constant (F := Ideal) S256x2048 .f32 0x00000000#32) (ix2 r j)
      = ∑ k : Fin 512, l (ix2 r k) * s (ix2 j k) := by
  refine (Ideal.matmul_constant_zero_apply dot_S256x512_S2048x512_S256x2048_1_1_0_0_n_n none l s (ix2 r j)).trans ?_
  rw [← Equiv.sum_comp (contrEquiv1 dot_S256x512_S2048x512_S256x2048_1_1_0_0_n_n 512 rfl rfl).symm]
  refine Finset.sum_congr rfl fun k _ => ?_
  have hk := contrEquiv1_symm_val dot_S256x512_S2048x512_S256x2048_1_1_0_0_n_n 512 rfl rfl k
  have el : dot_S256x512_S2048x512_S256x2048_1_1_0_0_n_n.lhsIdx (ix2 r j) ((contrEquiv1 dot_S256x512_S2048x512_S256x2048_1_1_0_0_n_n 512 rfl rfl).symm k) = ix2 r k := funext fun a => Fin.ext (by
    match a with
    | ⟨0, _⟩ => exact lhs_0 _ _
    | ⟨1, _⟩ => exact (lhs_1 _ _).trans hk)
  have er : dot_S256x512_S2048x512_S256x2048_1_1_0_0_n_n.rhsIdx (ix2 r j) ((contrEquiv1 dot_S256x512_S2048x512_S256x2048_1_1_0_0_n_n 512 rfl rfl).symm k) = ix2 j k := funext fun a => Fin.ext (by
    match a with
    | ⟨0, _⟩ => exact rhs_0 _ _
    | ⟨1, _⟩ => exact (rhs_1 _ _).trans hk)
  rw [el, er]

/-! ## The reductions along a row, and the column put back over the row -/

/-- Row `r` with `k` put back on the reduced axis is `(r, k)`. -/
theorem lift_eq (r : Fin 256) (k : Fin 2048) : reduces_S256x2048_S256.lift (ix1 r) k = ix2 r k :=
  funext fun a => Fin.ext (by match a with | ⟨0, _⟩ => rfl | ⟨1, _⟩ => rfl)

/-- The reduction by `maximumf` along the rows, at `r`: the maximum of row `r`, from −∞. -/
theorem rowmax_apply (v : FVec Ideal S256x2048 .f32) (r : Fin 256) :
    (multiReduction .maximumf [1] S256 v 0xFF800000#32 reduces_S256x2048_S256 (.inl rfl) rfl) (ix1 r) = rowMax (fun k : Fin 2048 => v (ix2 r k)) := by
  refine (Ideal.multiReduction_maximumf_single v 0xFF800000#32 reduces_S256x2048_S256 (.inl rfl) rfl (ix1 r)).trans ?_
  have e : (v ∘ reduces_S256x2048_S256.lift (ix1 r)) = fun k : Fin 2048 => v (ix2 r k) :=
    funext fun k => congrArg v (lift_eq r k)
  rw [e]
  rfl

/-- The reduction by `add` along the rows, at `r`: the sum of row `r`. -/
theorem rowsum_apply (v : FVec Ideal S256x2048 .f32) (r : Fin 256) :
    (multiReduction .add [1] S256 v 0x00000000#32 reduces_S256x2048_S256 (.inl rfl) rfl) (ix1 r) = ∑ k : Fin 2048, v (ix2 r k) := by
  refine (Ideal.multiReduction_add_single v 0x00000000#32 reduces_S256x2048_S256 (.inl rfl) rfl (ix1 r)).trans ?_
  exact Finset.sum_congr rfl fun k _ => congrArg v (lift_eq r k)

/-- A per-row value kept as a column and broadcast back over the row reads, at `(r, j)`, the value of row `r`. -/
theorem column_apply (w : FVec Ideal S256 .f32) (r : Fin 256) (j : Fin 2048) :
    (broadcastTo S256x2048 (shapeCast S256x1 w shapeCasts_S256_S256x1) broadcasts_S256x1_S256x2048) (ix2 r j) = w (ix1 r) :=
  (broadcastTo_a1_ab_apply _ broadcasts_S256x1_S256x2048 r j).trans (shapeCast_a_a1_apply w shapeCasts_S256_S256x1 r 0)

/-! ## The softmax of a block of scores -/

/-- The exponential of a score's distance to its row's maximum. -/
theorem expshift_apply (sc : FVec Ideal S256x2048 .f32) (r : Fin 256) (k : Fin 2048) :
    (exp (subf sc (broadcastTo S256x2048 (shapeCast S256x1 (multiReduction .maximumf [1] S256 sc 0xFF800000#32 reduces_S256x2048_S256 (.inl rfl) rfl) shapeCasts_S256_S256x1) broadcasts_S256x1_S256x2048))) (ix2 r k) = Ideal.exp (sc (ix2 r k) - rowMax (fun k' : Fin 2048 => sc (ix2 r k'))) := by
  show Ideal.exp (sc (ix2 r k) - (broadcastTo S256x2048 (shapeCast S256x1 (multiReduction .maximumf [1] S256 sc 0xFF800000#32 reduces_S256x2048_S256 (.inl rfl) rfl) shapeCasts_S256_S256x1) broadcasts_S256x1_S256x2048) (ix2 r k)) = _
  rw [column_apply, rowmax_apply]

/-- From a block of scores: maximum, subtract, exponential, sum, divide — the softmax of row `r` at `j`. -/
theorem softmax_of_scores (sc : FVec Ideal S256x2048 .f32) (r : Fin 256) (j : Fin 2048) :
    divf (exp (subf sc (broadcastTo S256x2048 (shapeCast S256x1 (multiReduction .maximumf [1] S256 sc 0xFF800000#32 reduces_S256x2048_S256 (.inl rfl) rfl) shapeCasts_S256_S256x1) broadcasts_S256x1_S256x2048))) (broadcastTo S256x2048 (shapeCast S256x1 (multiReduction .add [1] S256 (exp (subf sc (broadcastTo S256x2048 (shapeCast S256x1 (multiReduction .maximumf [1] S256 sc 0xFF800000#32 reduces_S256x2048_S256 (.inl rfl) rfl) shapeCasts_S256_S256x1) broadcasts_S256x1_S256x2048))) 0x00000000#32 reduces_S256x2048_S256 (.inl rfl) rfl) shapeCasts_S256_S256x1) broadcasts_S256x1_S256x2048) (ix2 r j) = softmax (fun k : Fin 2048 => sc (ix2 r k)) j := by
  show Ideal.div ((exp (subf sc (broadcastTo S256x2048 (shapeCast S256x1 (multiReduction .maximumf [1] S256 sc 0xFF800000#32 reduces_S256x2048_S256 (.inl rfl) rfl) shapeCasts_S256_S256x1) broadcasts_S256x1_S256x2048))) (ix2 r j)) ((broadcastTo S256x2048 (shapeCast S256x1 (multiReduction .add [1] S256 (exp (subf sc (broadcastTo S256x2048 (shapeCast S256x1 (multiReduction .maximumf [1] S256 sc 0xFF800000#32 reduces_S256x2048_S256 (.inl rfl) rfl) shapeCasts_S256_S256x1) broadcasts_S256x1_S256x2048))) 0x00000000#32 reduces_S256x2048_S256 (.inl rfl) rfl) shapeCasts_S256_S256x1) broadcasts_S256x1_S256x2048) (ix2 r j)) = _
  rw [column_apply, rowsum_apply, expshift_apply]
  unfold softmax
  refine congrArg (Ideal.div _) (Finset.sum_congr rfl fun k _ => ?_)
  exact expshift_apply sc r k

/-! ## The output tile's payload -/

/-- The output tile at `(u, r, j)`: the softmax over `j` of the scores of decoder row `r` against the rows of the
    carried buffer. -/
theorem tile_apply (x0 : Vec Ideal S1x256x512 .f32) (s : Vec Ideal S2048x512 .bf16) (u : Fin 1) (r : Fin 256) (j : Fin 2048) :
    k0_pay2 (F := Ideal) x0 s (ix3 u r j)
      = softmax (fun j' : Fin 2048 => ∑ k : Fin 512, x0 (ix3 (0 : Fin 1) r k) * s (ix2 j' k)) j := by
  unfold k0_pay2
  refine (shapeCast_ab_1ab_apply _ shapeCasts_S256x2048_S1x256x2048 u r j).trans ?_
  refine (softmax_of_scores (matmul dot_S256x512_S2048x512_S256x2048_1_1_0_0_n_n none (truncf .bf16 (shapeCast S256x512 x0 shapeCasts_S1x256x512_S256x512) bitsLt_bf16_f32) s (constant S256x2048 .f32 0x00000000#32)) r j).trans ?_
  refine congrArg (fun f => softmax f j) (funext fun j' => ?_)
  refine (product_apply _ s r j').trans (Finset.sum_congr rfl fun k _ => ?_)
  exact congrArg (· * s (ix2 j' k)) (shapeCast_1ab_ab_apply x0 shapeCasts_S1x256x512_S256x512 r k)

end Cert.KernelIdeal.Payload

end
-- ==== Proof.AttnValue.lean ====
/-
  From tiles to the array: what the kernel's result array holds after the run.

  The grid is 32 batches × 2 decoder tiles, visited batch by batch: point `t` is tile `t % 2` of batch `t / 2`. At
  point `t` the decoder window holds rows `256·(t % 2) …` of batch `t / 2`, the encoder window the whole of batch
  `t / 2`, and the output window is rows `256·(t % 2) …` of batch `t / 2` of the result.

  The buffer carried between points holds, after the FIRST tile of a batch, the (narrowed) encoder rows of that
  batch. The second tile of the batch does not store into it, and the point before it is the first tile of the SAME
  batch (`(t − 1) / 2 = t / 2` for odd `t`): so at either tile the product is taken against the encoder rows of the
  point's own batch, and the tile written back is the attention array's block. The 64 blocks cover the result.
-/
import proofs.«139620_j13065290514977_2_alg».proof.Proof.Gen.KernelIdeal.Value
import proofs.«139620_j13065290514977_2_alg».proof.Proof.Pieces
import proofs.«139620_j13065290514977_2_alg».proof.Proof.Payload

noncomputable section

namespace Cert.KernelIdeal.AttnValue

open Cert.KernelIdeal Cert.KernelIdeal.Gen Idealize.ShloMosaic Idealize.ShloMosaic.TcCoe Idealize.SL.Sem
open Idealize.ShloMosaic.ValueIdx Cert.Softmax
open Idealize.ShloMosaic.Pipeline (Dat)

variable (m : (ℓ : Loc nD τ sig) → Buf (Elt Ideal) ℓ) (ρ : Dev nD → PrngReg)

/-! ## Where each window's block sits -/

/-- The three index maps over the 64 points: batch `t / 2` for all three windows; decoder and output tile `t % 2`; the
    encoder window always at row block 0; the last axis never tiled. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = t.val % 2 ∧ win0_2.index t (2 : Fin 3) = 0 :=
  (by decide +kernel : ∀ t : Fin grid0.N, _)

/-- The decoder window's block at point `t`: entry `(u, r, k)` is the decoder's entry `(t / 2, 256·(t % 2) + r, k)`. -/
theorem dec_block (c : Dev nD) (t : Fin cfg0.N) (y : S1x256x512.Idx) (i : S32x512x512.Idx)
    (h0 : (i 0).val = t.val / 2) (h1 : (i 1).val = 256 * (t.val % 2) + (y 1).val) (h2 : (i 2).val = (y 2).val) :
    (iblk m c 0 t : Vec Ideal S1x256x512 .f32) y = V m c main_arg0 i := by
  obtain ⟨e0, e1, e2, -⟩ := idx_facts t
  have hy : (y 0).val < 1 := (y 0).isLt
  show V m c main_arg0 (((cfg0.win 0).blk t).view.emb y) = V m c main_arg0 i
  refine congrArg (V m c main_arg0 : S32x512x512.Idx → EReal) (funext fun a => Fin.ext ?_)
  match a with
  | ⟨0, _⟩ => show win0_0.index t (0 : Fin 3) * 1 + 1 * (y 0).val = (i 0).val; omega
  | ⟨1, _⟩ => show win0_0.index t (1 : Fin 3) * 256 + 1 * (y 1).val = (i 1).val; omega
  | ⟨2, _⟩ => show win0_0.index t (2 : Fin 3) * 512 + 1 * (y 2).val = (i 2).val; omega

/-- The encoder window's block at point `t`: entry `(u, j, k)` is the encoder's entry `(t / 2, j, k)`. -/
theorem enc_block (c : Dev nD) (t : Fin cfg0.N) (y : S1x2048x512.Idx) (i : S32x2048x512.Idx)
    (h0 : (i 0).val = t.val / 2) (h1 : (i 1).val = (y 1).val) (h2 : (i 2).val = (y 2).val) :
    (iblk m c 1 t : Vec Ideal S1x2048x512 .f32) y = V m c main_arg1 i := by
  obtain ⟨-, -, -, e0, e1, e2, -⟩ := idx_facts t
  have hy : (y 0).val < 1 := (y 0).isLt
  show V m c main_arg1 (((cfg0.win 1).blk t).view.emb y) = V m c main_arg1 i
  refine congrArg (V m c main_arg1 : S32x2048x512.Idx → EReal) (funext fun a => Fin.ext ?_)
  match a with
  | ⟨0, _⟩ => show win0_1.index t (0 : Fin 3) * 1 + 1 * (y 0).val = (i 0).val; omega
  | ⟨1, _⟩ => show win0_1.index t (1 : Fin 3) * 2048 + 1 * (y 1).val = (i 1).val; omega
  | ⟨2, _⟩ => show win0_1.index t (2 : Fin 3) * 512 + 1 * (y 2).val = (i 2).val; omega

/-! ## The carried buffer after the first tile of a batch -/

/-- After a first tile (an even point `t`) the carried buffer's entry `(j, d)` is the encoder's entry `(t / 2, j, d)`. -/
theorem carried_after_first (c : Dev nD) (t : Fin cfg0.N) (h0 : t.val % 2 = 0) (j : Fin 2048) (d : Fin 512)
    (i : S32x2048x512.Idx) (hi0 : (i 0).val = t.val / 2) (hi1 : (i 1).val = j.val) (hi2 : (i 2).val = d.val) :
    (outsAt0 m c t.val t.isLt).2 (ix2 j d) = V m c main_arg1 i := by
  rw [outsAt0_A m c t h0]
  dsimp only
  rw [Pieces.carried_first]
  exact (Payload.narrowed_apply (iblk m c 1 t) j d).trans (enc_block m c t (ix3 (0 : Fin 1) j d) i hi0 hi1 hi2)

/-! ## A tile computed against the encoder rows of its batch is the attention array's block -/

/-- For a decoder block holding rows `q + r` of batch `b` and a right operand holding the encoder rows of batch `b`, the
    output tile's payload at `(u, r, j)` is the attention array at `(b, q + r, j)`. -/
theorem tile_is_attn (dec : S32x512x512.Idx → EReal) (enc : S32x2048x512.Idx → EReal)
    (x0 : Vec Ideal S1x256x512 .f32) (s : Vec Ideal S2048x512 .bf16) (b : Fin 32) (q : ℕ)
    (hx0 : ∀ (r : Fin 256) (k : Fin 512) (i1 : Fin 512), i1.val = q + r.val → x0 (ix3 (0 : Fin 1) r k) = dec (ix3 b i1 k))
    (hs : ∀ (j : Fin 2048) (k : Fin 512), s (ix2 j k) = enc (ix3 b j k))
    (u : Fin 1) (r : Fin 256) (j : Fin 2048) (i1 : Fin 512) (hi1 : i1.val = q + r.val) :
    k0_pay2 (F := Ideal) x0 s (ix3 u r j) = attn dec enc (ix3 b i1 j) := by
  rw [Payload.tile_apply]
  show softmax _ j = softmax (scores dec enc b i1) j
  refine congrArg (fun f => softmax f j) (funext fun j' => ?_)
  unfold scores
  exact Finset.sum_congr rfl fun k _ => by rw [hx0 r k i1 hi1, hs j' k]

/-! ## What each point writes back -/

/-- WHAT POINT `t` WRITES BACK is block `t` of the attention array of the two argument arrays. -/
theorem flushed_eq (c : Dev nD) (t : Fin cfg0.N) :
    (dats m 0 c).flushed 2 t
      = ((cfg0.win 2).blk t).view.read (Elt Ideal) (attn (V m c main_arg0) (V m c main_arg1)) := by
  have hN : t.val < 64 := lt_of_lt_of_eq t.isLt (show cfg0.N = 64 from N_0)
  obtain ⟨-, -, -, -, -, -, e0, e1, e2⟩ := idx_facts t
  have hb : t.val / 2 < 32 := by omega
  -- whatever right operand holds the encoder rows of batch t / 2, the tile is the block
  have key : ∀ (s : Vec Ideal S2048x512 .bf16),
      (∀ (j : Fin 2048) (k : Fin 512), s (ix2 j k) = V m c main_arg1 (ix3 (⟨t.val / 2, hb⟩ : Fin 32) j k)) →
      (cfg0.win 2).cut (grid0.coords t) (k0_pay2 (F := Ideal) (iblk m c 0 t) s)
        = ((cfg0.win 2).blk t).view.read (Elt Ideal) (attn (V m c main_arg0) (V m c main_arg1)) := by
    intro s hs
    funext y
    show k0_pay2 (F := Ideal) (iblk m c 0 t) s y = attn (V m c main_arg0) (V m c main_arg1) (((cfg0.win 2).blk t).view.emb y)
    have hy0 : (y 0).val < 1 := (y 0).isLt
    have hy1 : (y 1).val < 256 := (y 1).isLt
    have hr : 256 * (t.val % 2) + (y 1).val < 512 := by omega
    have hemb : ((cfg0.win 2).blk t).view.emb y
        = ix3 (⟨t.val / 2, hb⟩ : Fin 32) (⟨256 * (t.val % 2) + (y 1).val, hr⟩ : Fin 512) (y 2) :=
      funext fun a => Fin.ext (by
        match a with
        | ⟨0, _⟩ => show win0_2.index t (0 : Fin 3) * 1 + 1 * (y 0).val = t.val / 2; omega
        | ⟨1, _⟩ => show win0_2.index t (1 : Fin 3) * 256 + 1 * (y 1).val = 256 * (t.val % 2) + (y 1).val; omega
        | ⟨2, _⟩ => show win0_2.index t (2 : Fin 3) * 2048 + 1 * (y 2).val = (y 2).val; omega)
    refine (congrArg (k0_pay2 (F := Ideal) (iblk m c 0 t) s) (eq_ix3 y)).trans ?_
    refine (tile_is_attn (V m c main_arg0) (V m c main_arg1) (iblk m c 0 t) s ⟨t.val / 2, hb⟩ (256 * (t.val % 2))
      (fun r k i1 h => dec_block m c t (ix3 (0 : Fin 1) r k) (ix3 (⟨t.val / 2, hb⟩ : Fin 32) i1 k) rfl h rfl) hs
      (y 0) (y 1) (y 2) ⟨256 * (t.val % 2) + (y 1).val, hr⟩ rfl).trans ?_
    exact (congrArg (attn (V m c main_arg0) (V m c main_arg1)) hemb).symm
  by_cases h0 : t.val % 2 = 0
  · rw [Value.flushed2_A m c t h0, Pieces.tile_first]
    exact key (k0_pay1 (iblk m c 1 t)) fun j k =>
      (Payload.narrowed_apply (iblk m c 1 t) j k).trans
        (enc_block m c t (ix3 (0 : Fin 1) j k) (ix3 (⟨t.val / 2, hb⟩ : Fin 32) j k) rfl rfl rfl)
  · have ht' : t.val - 1 < cfg0.N := Nat.lt_of_le_of_lt (Nat.sub_le _ _) t.isLt
    rw [Value.flushed2_B m c t h0, Pieces.tile_second]
    refine key _ fun j k => ?_
    exact carried_after_first m c ⟨t.val - 1, ht'⟩ (by show (t.val - 1) % 2 = 0; omega) j k
      (ix3 (⟨t.val / 2, hb⟩ : Fin 32) j k) (by show t.val / 2 = (t.val - 1) / 2; omega) rfl rfl

/-! ## The blocks cover the result -/

/-- An index of the result is in point `t`'s block iff each coordinate is in the block's range on its axis. -/
theorem mem_blk (t : Fin cfg0.N) (i : S32x512x2048.Idx) :
    i ∈ ((cfg0.win 2).blk t).view.set ↔ ∀ a : Fin 3, win0_2.index t a * S1x256x2048.size a ≤ (i a).val
      ∧ (i a).val < win0_2.index t a * S1x256x2048.size a + S1x256x2048.size a := by
  show i ∈ ((View.whole main_v0).slice (win0_2.rect t)).set ↔ _
  rw [View.set_slice_whole, Rect.mem_set_unit]
  exact Iff.rfl

/-- Entry `(b, i, j)` of the result is written back by point `2·b + i / 256`. -/
theorem cover (i : S32x512x2048.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 2048 := (i 2).isLt
  have hN : cfg0.N = 64 := N_0
  have hlt : 2 * (i 0).val + (i 1).val / 256 < cfg0.N := by rw [hN]; omega
  obtain ⟨t, ht⟩ : ∃ t : Fin cfg0.N, t.val = 2 * (i 0).val + (i 1).val / 256 := ⟨⟨_, hlt⟩, rfl⟩
  obtain ⟨-, -, -, -, -, -, e0, e1, e2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-! ## The result array, and the run -/

/-- THE RESULT ARRAY after the run is the attention array of the two argument arrays. -/
theorem final (c : Dev nD) : (dats m 0 c).arrAt 2 cfg0.N = attn (V m c main_arg0) (V m c main_arg1) :=
  (dats m 0 c).arrAt_eq_of_cover 2 (attn (V m c main_arg0) (V m c main_arg1)) (fun t _ => flushed_eq m c t) cover

/-- Every weakly fair execution of the idealized kernel terminates with the result at the attention array of the
    arguments, the arguments unchanged. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.AttnValue

end
-- ==== Proof.lean ====
/-
  Attention scores and their row softmax: the kernel against `softmax (einsum "bid,bjd->bij")`.

  Both programs compute, for every batch `b`, decoder row `i` and encoder row `j`,

      out[b, i, j] = exp (s[b, i, j] − M[b, i]) / ∑ₖ exp (s[b, i, k] − M[b, i]),
      s[b, i, j] = ∑_d dec[b, i, d] · enc[b, j, d],      M[b, i] = max over j of s[b, i, j], from −∞.

  The reference does it on whole arrays; its one extra step, a `maximum` of the row maxima with −∞, changes nothing. The
  kernel does it tile by tile — 256 decoder rows of one batch at a time against all 2048 encoder rows of that batch,
  the encoder rows narrowed to bf16 once per batch into a buffer it carries from the batch's first tile to its
  second. On the extended reals the narrowing is the identity, every score is the same finite sum on both sides, and
  the rest is the same expression of those sums: no sum is re-associated or distributed over, so the finiteness of the
  inputs is never used. The word-level kernel and its idealization are one text (nothing was rewritten), so what
  relates them is trivial; each program's frame — it terminates, faults nowhere and leaves its arguments as they
  were — is its run with the result dropped.
-/
import proofs.«139620_j13065290514977_2_alg».proof.Defs
import proofs.«139620_j13065290514977_2_alg».proof.Proof.Gen.Kernel
import proofs.«139620_j13065290514977_2_alg».proof.Proof.Gen.Kernel.Frame
import proofs.«139620_j13065290514977_2_alg».proof.Proof.Gen.KernelIdeal
import proofs.«139620_j13065290514977_2_alg».proof.Proof.Gen.KernelIdeal.Frame
import proofs.«139620_j13065290514977_2_alg».proof.Proof.Gen.ReferenceIdeal
import proofs.«139620_j13065290514977_2_alg».proof.Proof.Gen.Pre_finite_inputs
import proofs.«139620_j13065290514977_2_alg».proof.Proof.Gen.KernelIdeal.Value
import proofs.«139620_j13065290514977_2_alg».proof.Proof.Gen.ReferenceIdeal.Run
import proofs.«139620_j13065290514977_2_alg».proof.Proof.Gen.ReferenceIdeal.Read
import proofs.«139620_j13065290514977_2_alg».proof.Proof.RefAttn
import proofs.«139620_j13065290514977_2_alg».proof.Proof.AttnValue
import Idealize.ShloMosaic.Adequacy
import Idealize.ShloMosaic.Init

noncomputable section

namespace Cert.Proof

open Idealize.ShloMosaic Idealize.SL.Sem

/-- The word-level kernel terminates, faults nowhere and leaves its arguments unchanged. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- The reference is a straight line of array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- On the extended reals, from memories that agree on the two arguments, the kernel's result array and the
    reference's both end at the attention array of the arguments. -/
theorem algebraic : Cert.algebraic_KernelIdeal_ReferenceIdeal := by
  intro m ρ m' ρ' _ hagree
  refine ⟨_, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq_attn, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
